-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x8 .f32) (main_arg1 : IVec S2x3200000 32) (main_arg2 : FVec F S3200000 .f32) (main_arg3 : FVec F S8x64 .f32) (main_arg4 : FVec F S64 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x8 : Shape := ⟨2, ![5000, 8]⟩
abbrev S5000x64 : Shape := ⟨2, ![5000, 64]⟩
abbrev S3300000x64 : Shape := ⟨2, ![3300000, 64]⟩
abbrev S3301376x64 : Shape := ⟨2, ![3301376, 64]⟩
abbrev S3301376x1 : Shape := ⟨2, ![3301376, 1]⟩
abbrev S8192x64 : Shape := ⟨2, ![8192, 64]⟩
abbrev S8192x1 : Shape := ⟨2, ![8192, 1]⟩
abbrev S10000x64 : Shape := ⟨2, ![10000, 64]⟩
abbrev S1x64 : Shape := ⟨2, ![1, 64]⟩

abbrev nBuf : Space → Nat
  | .hbm => 78
  | .vmem => 16
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000, .f32⟩
  | .hbm, ⟨3, _⟩ => ⟨S8x64, .f32⟩
  | .hbm, ⟨4, _⟩ => ⟨S64, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x64, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x1, .f32⟩
  | .hbm, ⟨65, _⟩ => ⟨S_, .i32⟩
  | .hbm, ⟨66, _⟩ => ⟨S_, .f32⟩
  | .hbm, ⟨67, _⟩ => ⟨S3301376x64, .f32⟩
  | .hbm, ⟨68, _⟩ => ⟨S_, .i32⟩
  | .hbm, ⟨69, _⟩ => ⟨S_, .f32⟩
  | .hbm, ⟨70, _⟩ => ⟨S3301376x1, .f32⟩
  | .hbm, ⟨71, _⟩ => ⟨S3301376x64, .f32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S100000x64, .f32⟩
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x64, .f32⟩
  | .local _ .vmem, ⟨4, _⟩ => ⟨S5000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_call2_v0 : Ref sig .tc := ⟨.hbm, 66, rfl⟩
abbrev main_v44 : Ref sig .tc := ⟨.hbm, 67, rfl⟩
abbrev main_c_11 : Ref sig .tc := ⟨.hbm, 68, rfl⟩
abbrev main_call3_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  pads_S3300000x64_S3301376x64_013760_000 : S3300000x64.Pads (![0, 0] : Fin 2 → Nat) ![1376, 0] ![0, 0] S3301376x64
  h_S_ : 0 < S_.numel
  pads_S3300000x1_S3301376x1_013760_000 : S3300000x1.Pads (![0, 0] : Fin 2 → Nat) ![1376, 0] ![0, 0] S3301376x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S3301376x64_S3300000x64_0_0 : S3301376x64.Slices ![0, 0] S3300000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x8_S8x64_S5000x64_1_0_0_1_n_n_wf : DotDims.WF S5000x8 S8x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S3301376x64.size a
  hwx1_0 : ∀ i : grid1.Coords, EltTy.bits .f32 = 32 ∨ (Rect.block (s := S3301376x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3301376x64.size a
  hwx1_2 : ∀ i : grid1.Coords, EltTy.bits .f32 = 32 ∨ (Rect.block (s := S3301376x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000, .f32⟩
  | .hbm, ⟨3, _⟩ => ⟨S8x64, .f32⟩
  | .hbm, ⟨4, _⟩ => ⟨S64, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x64, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x1, .f32⟩
  | .hbm, ⟨65, _⟩ => ⟨S3300000x64, .f32⟩
  | .hbm, ⟨66, _⟩ => ⟨S3300000x64, .f32⟩
  | .hbm, ⟨67, _⟩ => ⟨S_, .f32⟩
  | .hbm, ⟨68, _⟩ => ⟨S100000x64, .f32⟩
  | .hbm, ⟨69, _⟩ => ⟨S3300000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x8_S8x64_S100000x64_1_0_0_1_n_n_wf : DotDims.WF S100000x8 S8x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
import proofs.«141743_j36567351558725_1_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer holds what the fold of contents through the host stretches and the three regions leaves there, and the five argument arrays are as launched. -/
theorem run : θ_run defs (onTc (τ := τ) (main (F := F))) ⟨m, fun _ => 0, ρ⟩ (fun r => ∀ c : Dev nD,
      r.2.mem ((c.tc : Thread nD τ).loc main_v51) = W13 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    -- the program is the run of its 13 segments
    (fun c Q => by rw [main_run m ρ c])
    -- each pipeline is entered by exactly one segment
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state at the launch: every unscoped buffer at its launch contents; at the end: at the last boundary's
    (T₀ := fun c => iprop(StableHlo.held (c : Thread nD τ) (Pipeline.ucRefs τ sig) (W0 m ρ c) ∗ R c)) (Tₙ := Tₙ m ρ)
    -- each segment's exit state is the next one's entry state, by name
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- in the final state every unscoped buffer holds the last boundary's contents
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    -- the result buffer is an unscoped buffer: it is read as it stands; each argument array is read back through the
    -- fold to its launch contents
    (hQ := fun s h c =>
      ⟨h c _ (mem_uc main_v51 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.KernelIdeal.Gcn

end
-- ==== Proof.Arrays.lean ====
/-
  The two whole-array functions the elementwise regions compute, index by index, over the extended reals:
  every row of a 3301376 × 64 array scaled by that row's entry of a 3301376 × 1 column, and a 64-vector added
  to every row of a 100000 × 64 array.
-/
import proofs.«141743_j36567351558725_1_alg».proof.KernelIdeal
import Idealize.ShloMosaic.PureOps.Ideal
import Idealize.ShloMosaic.Lib.ValueIdx

noncomputable section

namespace Cert.KernelIdeal.Gcn

open Cert.KernelIdeal Idealize.ShloMosaic Idealize.ShloMosaic.ValueIdx

/-- Entry (e, j) is g(e, j) · n(e, 0): row e of g scaled by the e-th entry of the column n. -/
def scaleRows (g : S3301376x64.Idx → EReal) (n : S3301376x1.Idx → EReal) : S3301376x64.Idx → EReal :=
  fun i => g i * n (ix2 (⟨(i 0).val, (i 0).isLt⟩ : Fin 3301376) (0 : Fin 1))

/-- Entry (r, j) is s(r, j) + b(j): the vector b added to every row of s. -/
def addRow (s : S100000x64.Idx → EReal) (b : S64.Idx → EReal) : S100000x64.Idx → EReal :=
  fun i => s i + b (ix1 (⟨(i 1).val, (i 1).isLt⟩ : Fin 64))

end Cert.KernelIdeal.Gcn

end
-- ==== Proof.HostLayout.lean ====
/-
  Two facts about whole arrays over the extended reals, read index by index.

  * Pad a 3300000 × 64 array g and a 3300000 × 1 column n with 1376 extra rows each, scale every row of the padded
    array by the padded column's entry of that row, and keep the first 3300000 rows: the result is g times n
    broadcast along the rows. An index (e, j) with e < 3300000 lies inside both operands, so neither padding value is
    ever read, and the product there is g(e, j) · n(e, 0).
  * Adding a 64-vector b to every row of a 100000 × 64 array s is the sum of s with b broadcast first to 1 × 64 and
    then to 100000 × 64: entry (r, j) is s(r, j) + b(j) either way.
-/
import proofs.«141743_j36567351558725_1_alg».proof.Proof.Arrays
import Idealize.ShloMosaic.Lib.Pipeline.Value
import Idealize.ShloMosaic.Lib.KernelVsHost
import Idealize.ShloMosaic.Lib.ValueIdx

set_option maxRecDepth 16384

noncomputable section

namespace Cert.KernelIdeal.Gcn

open Cert.KernelIdeal Idealize.ShloMosaic Idealize.ShloMosaic.ValueIdx

/-- Index (e, j) of the 3300000-row array seen as an index of the 3301376-row array. -/
def rowIn64 (i : S3300000x64.Idx) : S3301376x64.Idx := fun a => match a with
  | ⟨0, _⟩ => ⟨(i 0).val, by have h : (i 0).val < 3300000 := (i 0).isLt; show (i 0).val < 3301376; omega⟩
  | ⟨1, _⟩ => ⟨(i 1).val, (i 1).isLt⟩

/-- Keeping the first 3300000 rows of the row-scaled product of the two padded arrays gives g · (n broadcast along rows). -/
theorem slice_scaleRows_pad (g : S3300000x64.Idx → EReal) (n : S3300000x1.Idx → EReal) (v v' : S_.Idx → EReal)
    (hp : S3300000x64.Pads ![0, 0] ![1376, 0] ![0, 0] S3301376x64) (hp' : S3300000x1.Pads ![0, 0] ![1376, 0] ![0, 0] S3301376x1)
    (hu : 0 < S_.numel) (hs : S3301376x64.Slices ![0, 0] S3300000x64) (hb : S3300000x1.BroadcastsInDim S3300000x64 ![0, 1]) :
    extractStridedSlice S3300000x64 ![0, 0]
        (scaleRows (pad S3301376x64 ![0, 0] ![1376, 0] ![0, 0] g v hp hu) (pad S3301376x1 ![0, 0] ![1376, 0] ![0, 0] n v' hp' hu)) hs
      = mulf (F := Ideal) (φ := .f32) g (broadcastInDim S3300000x64 ![0, 1] hb n) := by
  funext i
  have hi0 : (i 0).val < 3300000 := (i 0).isLt
  -- the slice reads the padded product at the same coordinates
  rw [extractStridedSlice_apply ![0, 0] _ hs i (rowIn64 i) (fun a => match a with
    | ⟨0, _⟩ => by show (i 0).val = 0 + (i 0).val; omega
    | ⟨1, _⟩ => by show (i 1).val = 0 + (i 1).val; omega)]
  -- inside the operand the padded array is the array itself
  have hg : pad S3301376x64 ![0, 0] ![1376, 0] ![0, 0] g v hp hu (rowIn64 i) = g i :=
    pad_apply_of_inside ![0, 0] ![1376, 0] ![0, 0] g v hp hu (rowIn64 i) i (fun a => match a with
      | ⟨0, _⟩ => by show (i 0).val = 0 + (i 0).val * (0 + 1); omega
      | ⟨1, _⟩ => by show (i 1).val = 0 + (i 1).val * (0 + 1); omega)
  have hn : pad S3301376x1 ![0, 0] ![1376, 0] ![0, 0] n v' hp' hu (ix2 (⟨((rowIn64 i) 0).val, ((rowIn64 i) 0).isLt⟩ : Fin 3301376) (0 : Fin 1))
      = n (ix2 (⟨(i 0).val, hi0⟩ : Fin 3300000) (0 : Fin 1)) :=
    pad_apply_of_inside ![0, 0] ![1376, 0] ![0, 0] n v' hp' hu _ _ (fun a => match a with
      | ⟨0, _⟩ => by show (i 0).val = 0 + (i 0).val * (0 + 1); omega
      | ⟨1, _⟩ => by show 0 = 0 + 0 * (0 + 1); omega)
  have hbn : broadcastInDim S3300000x64 ![0, 1] hb n i = n (ix2 (⟨(i 0).val, hi0⟩ : Fin 3300000) (0 : Fin 1)) :=
    broadcastInDim_apply ![0, 1] hb n i _ (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show pad S3301376x64 ![0, 0] ![1376, 0] ![0, 0] g v hp hu (rowIn64 i)
      * pad S3301376x1 ![0, 0] ![1376, 0] ![0, 0] n v' hp' hu (ix2 (⟨((rowIn64 i) 0).val, ((rowIn64 i) 0).isLt⟩ : Fin 3301376) (0 : Fin 1))
    = g i * broadcastInDim S3300000x64 ![0, 1] hb n i
  rw [hg, hn, hbn]

/-- Adding b to every row is the sum with b broadcast to one row and then to all rows. -/
theorem addRow_eq_addf (s : S100000x64.Idx → EReal) (b : S64.Idx → EReal)
    (h1 : S64.BroadcastsInDim S1x64 ![1]) (h2 : S1x64.BroadcastsInDim S100000x64 ![0, 1]) :
    addRow s b = addf (F := Ideal) (φ := .f32) s (broadcastInDim S100000x64 ![0, 1] h2 (broadcastInDim S1x64 ![1] h1 b)) := by
  funext i
  have hi1 : (i 1).val < 64 := (i 1).isLt
  have e2 : broadcastInDim S100000x64 ![0, 1] h2 (broadcastInDim S1x64 ![1] h1 b) i
      = broadcastInDim S1x64 ![1] h1 b (ix2 (0 : Fin 1) (⟨(i 1).val, hi1⟩ : Fin 64)) :=
    broadcastInDim_apply (s := S1x64) (t := S100000x64) ![0, 1] h2 (broadcastInDim S1x64 ![1] h1 b) i
      (ix2 (0 : Fin 1) (⟨(i 1).val, hi1⟩ : Fin 64)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  have e1 : broadcastInDim S1x64 ![1] h1 b (ix2 (0 : Fin 1) (⟨(i 1).val, hi1⟩ : Fin 64)) = b (ix1 (⟨(i 1).val, hi1⟩ : Fin 64)) :=
    broadcastInDim_apply (s := S64) (t := S1x64) ![1] h1 b (ix2 (0 : Fin 1) (⟨(i 1).val, hi1⟩ : Fin 64))
      (ix1 (⟨(i 1).val, hi1⟩ : Fin 64)) (fun a => match a with
      | ⟨0, _⟩ => by show (i 1).val = if (64 : Nat) = 1 then 0 else (i 1).val; rw [if_neg (by decide)])
  show s i + b (ix1 (⟨(i 1).val, (i 1).isLt⟩ : Fin 64)) = s i + broadcastInDim S100000x64 ![0, 1] h2 (broadcastInDim S1x64 ![1] h1 b) i
  rw [e2, e1]

end Cert.KernelIdeal.Gcn

end
-- ==== Proof.MatmulBlocks.lean ====
import proofs.«141743_j36567351558725_1_alg».proof.Proof.Gen.KernelIdeal.Frame
import proofs.«141743_j36567351558725_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's product at an entry -/

/-- The left operand's index under the contraction: row of the output entry, on axis 0. -/
theorem matmul_lhsIdx_row (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
/-- … and the contracted index on axis 1. -/
theorem matmul_lhsIdx_contr (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
/-- The right operand's index: the contracted index on axis 0. -/
theorem matmul_rhsIdx_contr (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
/-- … and the column of the output entry on axis 1. -/
theorem matmul_rhsIdx_col (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- The body's result at entry (p, q) is the sum over k of x(p, k) · w(k, q): the narrowing of the operands is the
    identity on extended reals and the accumulator is the zero splat. -/
theorem matmul_blockProduct_apply (x : Vec Ideal S5000x8 .f32) (w : Vec Ideal S8x64 .f32) (p : Fin 5000) (q : Fin 64) :
    k0_pay1 (F := Ideal) x w (ix2 p q) = ∑ k : Fin 8, x (ix2 p k) * w (ix2 k q) := by
  unfold k0_pay1
  simp only [matmul]
  refine (Ideal.matmul_constant_zero_apply dot_S5000x8_S8x64_S5000x64_1_0_0_1_n_n none _ _ (ix2 p q)).trans ?_
  rw [← Equiv.sum_comp (contrEquiv1 dot_S5000x8_S8x64_S5000x64_1_0_0_1_n_n 8 rfl rfl).symm]
  refine Finset.sum_congr rfl fun k _ => ?_
  have hk := contrEquiv1_symm_val dot_S5000x8_S8x64_S5000x64_1_0_0_1_n_n 8 rfl rfl k
  have el : dot_S5000x8_S8x64_S5000x64_1_0_0_1_n_n.lhsIdx (ix2 p q) ((contrEquiv1 dot_S5000x8_S8x64_S5000x64_1_0_0_1_n_n 8 rfl rfl).symm k) = ix2 p k := funext fun a => Fin.ext (by
    match a with
    | ⟨0, _⟩ => exact matmul_lhsIdx_row _ _
    | ⟨1, _⟩ => exact (matmul_lhsIdx_contr _ _).trans hk)
  have er : dot_S5000x8_S8x64_S5000x64_1_0_0_1_n_n.rhsIdx (ix2 p q) ((contrEquiv1 dot_S5000x8_S8x64_S5000x64_1_0_0_1_n_n 8 rfl rfl).symm k) = ix2 k q := funext fun a => Fin.ext (by
    match a with
    | ⟨0, _⟩ => exact (matmul_rhsIdx_contr _ _).trans hk
    | ⟨1, _⟩ => exact matmul_rhsIdx_col _ _)
  rw [el, er]
  rfl

/-! ## The windows' blocks over the grid -/

theorem matmul_zeroOffsets : (![0, 0] : Fin 2 → Nat) = fun _ => 0 := funext fun a => by fin_cases a <;> rfl

/-- The printed index maps, decided over the twenty grid points: the left operand's row block is the result's, which is
    the point's own number; every other block index is 0 (the right operand is one block, and both row-blocked arrays
    are one block wide). -/
theorem matmul_blockIndices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left operand's block at point t, entry (p, k), is the array's entry (5000·(row block) + p, k). -/
theorem matmul_lhsBlock_apply (c : Dev nD) (t : Fin cfg0.N) (p : Fin 5000) (k : Fin 8) (i : S100000x8.Idx)
    (h0 : (i 0).val = win0_2.index t (0 : Fin 2) * 5000 + p.val) (h1 : (i 1).val = k.val) :
    (iblk0 V c 0 t : Vec Ideal S5000x8 .f32) (ix2 p k) = (V c main_arg0 : S100000x8.Idx → EReal) i := by
  obtain ⟨e0, e1, -, -, -, -⟩ := matmul_blockIndices t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 8 + 1 * k.val = (i 1).val; rw [e1, h1]; omega

/-- The right operand's block at every point is the whole array. -/
theorem matmul_rhsBlock_apply (c : Dev nD) (t : Fin cfg0.N) (k : Fin 8) (q : Fin 64) (i : S8x64.Idx)
    (h0 : (i 0).val = k.val) (h1 : (i 1).val = q.val) :
    (iblk0 V c 1 t : Vec Ideal S8x64 .f32) (ix2 k q) = (V c main_arg3 : S8x64.Idx → EReal) i := by
  obtain ⟨-, -, e0, e1, -, -⟩ := matmul_blockIndices t
  unfold iblk0
  rw [View.read_apply]
  show V c main_arg3 _ = V c main_arg3 _
  congr 1
  funext a
  apply Fin.ext
  match a with
  | ⟨0, _⟩ => show win0_1.index t (0 : Fin 2) * 8 + 1 * k.val = (i 0).val; rw [e0, h0]; omega
  | ⟨1, _⟩ => show win0_1.index t (1 : Fin 2) * 64 + 1 * q.val = (i 1).val; rw [e1, h1]; omega

/-! ## What each point writes back, and the array after the twenty points -/

/-- Point t writes back block t of the whole matrix product: entry (p, q) of its block is the sum over k of the left
    array's entry (5000·t + p, k) times the right array's entry (k, q). -/
theorem matmul_writtenBack_eq (c : Dev nD) (t : Fin cfg0.N) :
    (dat0 (F := Ideal) V c).flushed 2 t
      = ((cfg0.win 2).blk t).view.read (Elt Ideal)
          (Cert.ReferenceIdeal.Read.val_main_v35 (F := Ideal) (V c main_arg0) (V c main_arg3)) := by
  show (cfg0.win 2).cut (grid0.coords t) ((dat0 V c).after 2 t) = _
  rw [after0_2]
  unfold out0_2
  rw [View.canon_unit_zero matmul_zeroOffsets]
  simp only [View.ld_unit_zero (S := S5000x8) matmul_zeroOffsets, View.ld_unit_zero (S := S8x64) matmul_zeroOffsets]
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.ReferenceIdeal.Read.val_main_v35 (F := Ideal) (V c main_arg0) (V c main_arg3) (((cfg0.win 2).blk t).view.emb (ix2 p q))
  refine (matmul_blockProduct_apply (iblk0 V c 0 t) (iblk0 V c 1 t) p q).trans ?_
  refine Eq.trans ?_ (Cert.ReferenceIdeal.Read.val_main_v35_apply (V c main_arg0) (V c main_arg3) (((cfg0.win 2).blk t).view.emb (ix2 p q))).symm
  refine Finset.sum_congr rfl fun k _ => ?_
  have hl := matmul_lhsBlock_apply V c t p k
    (Cert.ReferenceIdeal.Read.lidx_main_v35 (((cfg0.win 2).blk t).view.emb (ix2 p q)) k)
    (by show win0_2.index t (0 : Fin 2) * 5000 + 1 * p.val = win0_2.index t (0 : Fin 2) * 5000 + p.val; omega) rfl
  have hr := matmul_rhsBlock_apply V c t k q
    (Cert.ReferenceIdeal.Read.ridx_main_v35 (((cfg0.win 2).blk t).view.emb (ix2 p q)) k)
    rfl
    (by obtain ⟨-, -, -, -, -, e5⟩ := matmul_blockIndices t
        show win0_2.index t (1 : Fin 2) * 64 + 1 * q.val = q.val; rw [e5]; omega)
  rw [hl, hr]

/-- An index of the result array is in point t's block iff each coordinate is in the block's range on its axis. -/
theorem matmul_mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Every entry of the result array is in some point's block: row r is in the block of point r / 5000. -/
theorem matmul_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := by show _ < grid0.N; rw [N_0]; omega
  obtain ⟨-, -, -, -, e4, e5⟩ := matmul_blockIndices ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [matmul_mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4']; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- After the twenty grid points the result array is the whole matrix product: entry (r, j) is the sum over k of x(r, k) · w(k, j) — the host's dot_general of the two arrays as the region finds them. -/
theorem matmul_region (c : Dev nD) :
    (dat0 (F := Ideal) V c).arrAt 2 cfg0.N
      = Cert.ReferenceIdeal.Read.val_main_v35 (F := Ideal) (V c main_arg0) (V c main_arg3) :=
  (dat0 (F := Ideal) V c).arrAt_eq_of_cover 2
    (Cert.ReferenceIdeal.Read.val_main_v35 (F := Ideal) (V c main_arg0) (V c main_arg3))
    (fun t _ => matmul_writtenBack_eq V c t) matmul_covered

end Cert.KernelIdeal.Gcn

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.ScaleBlocks.lean ====
import proofs.«141743_j36567351558725_1_alg».proof.Proof.Gen.KernelIdeal.Frame
import proofs.«141743_j36567351558725_1_alg».proof.Proof.Gen.ReferenceIdeal.Read
import proofs.«141743_j36567351558725_1_alg».proof.Proof.Arrays
import proofs.«141743_j36567351558725_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The row-scaling region: 403 grid points, point t working on rows 8192·t … 8192·t + 8191. Its body multiplies the
    8192 × 64 block of the first array by the 8192 × 1 block of the column, repeated along the 64 lanes. Each point's
    written block is the matching block of ONE whole-array function (scaleRows of the two arrays as the region finds
    them), and the 403 blocks cover all 3301376 rows, so the result array ends holding that function. -/

/-- The zero offset of a whole-buffer access, as a constant function. -/
theorem scale_offsets_zero : (![0, 0] : Fin 2 → Nat) = fun _ => 0 := funext fun a => by fin_cases a <;> rfl

/-- The body's product at entry (p, q): the first block's entry (p, q) times the column block's entry (p, 0)
    (the two casts are casts of a shape to itself; the broadcast repeats the column along the 64 lanes). -/
theorem scale_payload (g : Vec Ideal S8192x64 .f32) (n : Vec Ideal S8192x1 .f32) (p : Fin 8192) (q : Fin 64) :
    k1_pay1 (F := Ideal) g n (ix2 p q) = g (ix2 p q) * n (ix2 p (0 : Fin 1)) := by
  have hg : shapeCast S8192x64 (g : FVec Ideal S8192x64 .f32) shapeCasts_S8192x64_S8192x64 = g := shapeCast_self _ _
  have hn : shapeCast S8192x1 (n : FVec Ideal S8192x1 .f32) shapeCasts_S8192x1_S8192x1 = n := shapeCast_self _ _
  have hb : broadcastTo S8192x64 (n : FVec Ideal S8192x1 .f32) broadcasts_S8192x1_S8192x64 (ix2 p q) = n (ix2 p (0 : Fin 1)) :=
    Cert.Lib.broadcastTo_a1_ab_apply _ _ p q
  unfold k1_pay1
  show (shapeCast S8192x64 (g : FVec Ideal S8192x64 .f32) shapeCasts_S8192x64_S8192x64) (ix2 p q)
      * (broadcastTo S8192x64 (shapeCast S8192x1 (n : FVec Ideal S8192x1 .f32) shapeCasts_S8192x1_S8192x1) broadcasts_S8192x1_S8192x64) (ix2 p q) = _
  rw [hg, hn, hb]

/-- The three windows' block indices, decided over the 403 grid points: at point t every window is on row block t
    and column block 0. -/
theorem scale_index_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) = t.val :=
  (by decide +kernel : ∀ t : Fin grid1.N, _)

/-- An index of the result array is in point t's block iff each coordinate is in the block's range on its axis. -/
theorem scale_mem_block (t : Fin cfg1.N) (i : S3301376x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v46).slice (win1_2.rect t)).set ↔ _
  rw [View.set_slice_whole, Rect.mem_set_unit]
  exact Iff.rfl

/-- Every row r of the result array lies in the block of the point r / 8192 (403 · 8192 = 3301376 rows in all). -/
theorem scale_covered (i : S3301376x64.Idx) :
    ∃ t : Fin cfg1.N, (cfg1.win 2).flush t = true ∧ i ∈ ((cfg1.win 2).blk t).view.set := by
  have hi0 : (i 0).val < 3301376 := (i 0).isLt
  have hi1 : (i 1).val < 64 := (i 1).isLt
  obtain ⟨t, ht⟩ : ∃ t : Fin cfg1.N, t.val = (i 0).val / 8192 :=
    ⟨⟨(i 0).val / 8192, by show (i 0).val / 8192 < grid1.N; rw [N_1]; omega⟩, rfl⟩
  obtain ⟨e0, e1, e2, e3, e4, e5⟩ := scale_index_facts t
  refine ⟨t, flush1_2 t, ?_⟩
  rw [scale_mem_block]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 64 ≤ (i 1).val ∧ (i 1).val < win1_2.index t (1 : Fin 2) * 64 + 64
    omega

/-- Entry (p, q) of point t's block, for any two arrays G and N: G read through the first window's block times N
    read through the column window's block is the scaled array read through the result window's block — the three
    blocks sit on the same 8192 rows. -/
theorem scale_block_entry (G : S3301376x64.Idx → EReal) (N : S3301376x1.Idx → EReal) (t : Fin cfg1.N)
    (p : Fin 8192) (q : Fin 64) :
    G (((cfg1.win 0).blk t).view.emb (ix2 p q)) * N (((cfg1.win 1).blk t).view.emb (ix2 p (0 : Fin 1)))
      = scaleRows G N (((cfg1.win 2).blk t).view.emb (ix2 p q)) := by
  obtain ⟨e0, e1, e2, e3, e4, e5⟩ := scale_index_facts t
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 (⟨((((cfg1.win 2).blk t).view.emb (ix2 p q)) 0).val, ((((cfg1.win 2).blk t).view.emb (ix2 p q)) 0).isLt⟩ : Fin 3301376) (0 : Fin 1) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega
  unfold scaleRows
  rw [h0, h1]

/-- What point t writes back is block t of the scaled array: the product of the first array's block and the
    column's block, each read where the result's block sits. -/
theorem scale_flushed (c : Dev nD) (t : Fin cfg1.N) :
    (dat1 (F := Ideal) V c).flushed 2 t
      = ((cfg1.win 2).blk t).view.read (Elt Ideal) (scaleRows (V c main_v44) (V c main_v45)) := by
  show (cfg1.win 2).cut (grid1.coords t) ((dat1 (F := Ideal) V c).after 2 t) = _
  rw [after1_2]
  unfold out1_2
  rw [View.canon_unit_zero scale_offsets_zero]
  simp only [View.ld_unit_zero (S := S8192x64) scale_offsets_zero, View.ld_unit_zero (S := S8192x1) scale_offsets_zero]
  funext j
  obtain ⟨p, q, rfl⟩ : ∃ (p : Fin 8192) (q : Fin 64), j = ix2 p q := ⟨j 0, j 1, eq_ix2 j⟩
  show k1_pay1 (F := Ideal) (iblk1 V c 0 t) (iblk1 V c 1 t) (ix2 p q)
      = scaleRows (V c main_v44) (V c main_v45) (((cfg1.win 2).blk t).view.emb (ix2 p q))
  refine (scale_payload (iblk1 V c 0 t) (iblk1 V c 1 t) p q).trans ?_
  exact scale_block_entry (V c main_v44) (V c main_v45) t p q

/-- After the 403 grid points the result array is the first array with every row scaled by that row's entry of the column: entry (e, j) is g(e, j) · n(e, 0). -/
theorem scale_region (c : Dev nD) :
    (dat1 (F := Ideal) V c).arrAt 2 cfg1.N = scaleRows (V c main_v44) (V c main_v45) :=
  (dat1 (F := Ideal) V c).arrAt_eq_of_cover 2 (scaleRows (V c main_v44) (V c main_v45))
    (fun t _ => scale_flushed V c t) scale_covered

end Cert.KernelIdeal.Gcn

end
-- ==== Proof.BiasBlocks.lean ====
import proofs.«141743_j36567351558725_1_alg».proof.Proof.Gen.KernelIdeal.Frame
import proofs.«141743_j36567351558725_1_alg».proof.Proof.Gen.ReferenceIdeal.Read
import proofs.«141743_j36567351558725_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The third region adds a 64-vector to every row of a 100000 × 64 array, 10000 rows per grid point. Here: the
    body's arithmetic at one entry of a block, each input block as entries of its array, what one point writes
    back as a block of the whole-array function, the ten blocks covering every row, and so the array after the
    region. -/

/-- The body's arithmetic at entry (p, q) of a block: the block's entry plus the vector's q-th entry. -/
theorem bias_payload (s : Vec Ideal S10000x64 .f32) (b : Vec Ideal S64 .f32) (p : Fin 10000) (q : Fin 64) :
    k2_pay1 (F := Ideal) s b (ix2 p q) = s (ix2 p q) + b (ix1 q) := by
  unfold k2_pay1
  rw [addf_apply, shapeCast_self, broadcastTo_1b_ab_apply, shapeCast_a_1a_apply]

/-- The printed block-index maps over the ten grid points: the input rows and the output rows move together, the
    point's number is the row block's number, the column block and the vector's block stay at zero. -/
theorem bias_index_facts : ∀ t : Fin cfg2.N, win2_0.index t (0 : Fin 2) = win2_2.index t (0 : Fin 2)
    ∧ win2_0.index t (1 : Fin 2) = 0
    ∧ win2_2.index t (1 : Fin 2) = 0
    ∧ win2_1.index t (0 : Fin 1) = 0
    ∧ win2_2.index t (0 : Fin 2) = t.val :=
  (by decide +kernel : ∀ t : Fin grid2.N, _)

/-- The all-zero offsets of a rank-2 access, as a constant function. -/
theorem offsets2_zero : (![0, 0] : Fin 2 → Nat) = fun _ => 0 := funext fun a => by fin_cases a <;> rfl

/-- The all-zero offsets of a rank-1 access, as a constant function. -/
theorem offsets1_zero : (![0] : Fin 1 → Nat) = fun _ => 0 := funext fun a => by fin_cases a <;> rfl

/-- Entry (p, q) of the first array's block at point t is the array's entry k, whenever k is row 10000 t + p, column q. -/
theorem rows_block_apply (c : Dev nD) (t : Fin cfg2.N) (p : Fin 10000) (q : Fin 64) (k : S100000x64.Idx)
    (hk0 : (k 0).val = 10000 * t.val + p.val) (hk1 : (k 1).val = q.val) :
    (iblk2 (F := Ideal) V c 0 t : Vec Ideal S10000x64 .f32) (ix2 p q) = (V c main_v50 : S100000x64.Idx → EReal) k := by
  obtain ⟨e0, e1, e2, e3, e4⟩ := bias_index_facts t
  unfold iblk2
  rw [View.read_apply]
  show V c main_v50 _ = V c main_v50 _
  congr 1
  funext a
  apply Fin.ext
  match a with
  | ⟨0, _⟩ => show win2_0.index t (0 : Fin 2) * 10000 + 1 * p.val = (k 0).val; omega
  | ⟨1, _⟩ => show win2_0.index t (1 : Fin 2) * 64 + 1 * q.val = (k 1).val; omega

/-- Entry q of the vector's block at any point is the vector's entry q: the block is the whole vector. -/
theorem vector_block_apply (c : Dev nD) (t : Fin cfg2.N) (q : Fin 64) (k : S64.Idx) (hk : (k 0).val = q.val) :
    (iblk2 (F := Ideal) V c 1 t : Vec Ideal S64 .f32) (ix1 q) = (V c main_arg4 : S64.Idx → EReal) k := by
  obtain ⟨e0, e1, e2, e3, e4⟩ := bias_index_facts t
  unfold iblk2
  rw [View.read_apply]
  show V c main_arg4 _ = V c main_arg4 _
  congr 1
  funext a
  apply Fin.ext
  match a with
  | ⟨0, _⟩ => show win2_1.index t (0 : Fin 1) * 64 + 1 * q.val = (k 0).val; omega

/-- What point t writes back is block t of the whole-array function: rows 10000 t .. of the first array with the
    vector added to each. -/
theorem bias_flushed (c : Dev nD) (t : Fin cfg2.N) :
    (dat2 (F := Ideal) V c).flushed 2 t
      = ((cfg2.win 2).blk t).view.read (Elt Ideal) (addRow (V c main_v50) (V c main_arg4)) := by
  show (cfg2.win 2).cut (grid2.coords t) ((dat2 (F := Ideal) V c).after 2 t) = _
  rw [after2_2]
  unfold out2_2
  rw [View.canon_unit_zero offsets2_zero]
  simp only [View.ld_unit_zero (S := S10000x64) offsets2_zero, View.ld_unit_zero (S := S64) offsets1_zero]
  obtain ⟨e0, e1, e2, e3, e4⟩ := bias_index_facts t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
      = addRow (V c main_v50) (V c main_arg4) (((cfg2.win 2).blk t).view.emb (ix2 p q))
  refine (bias_payload (iblk2 V c 0 t) (iblk2 V c 1 t) p q).trans ?_
  have h0 : ((((cfg2.win 2).blk t).view.emb (ix2 p q) : S100000x64.Idx) 0).val = 10000 * t.val + p.val := by
    show win2_2.index t (0 : Fin 2) * 10000 + 1 * p.val = _; omega
  have h1 : ((((cfg2.win 2).blk t).view.emb (ix2 p q) : S100000x64.Idx) 1).val = q.val := by
    show win2_2.index t (1 : Fin 2) * 64 + 1 * q.val = _; omega
  rw [rows_block_apply V c t p q _ h0 h1,
    vector_block_apply V c t q (ix1 (⟨(((cfg2.win 2).blk t).view.emb (ix2 p q) 1).val,
      (((cfg2.win 2).blk t).view.emb (ix2 p q) 1).isLt⟩ : Fin 64)) h1]
  rfl

/-- A row-column index is in point t's output block iff each coordinate is in the block's range on its axis. -/
theorem mem_rows_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v51).slice (win2_2.rect t)).set ↔ _
  rw [View.set_slice_whole, Rect.mem_set_unit]
  exact Iff.rfl

/-- Every entry of the result is written: row r lies in the block of point r / 10000. -/
theorem rows_covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  obtain ⟨e0, e1, e2, e3, e4⟩ := bias_index_facts t
  refine ⟨t, flush2_2 t, ?_⟩
  rw [mem_rows_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the ten grid points the result array is the first array with the 64-vector added to every row: entry (r, j) is s(r, j) + b(j). -/
theorem bias_region (c : Dev nD) :
    (dat2 (F := Ideal) V c).arrAt 2 cfg2.N = addRow (V c main_v50) (V c main_arg4) :=
  (dat2 (F := Ideal) V c).arrAt_eq_of_cover 2 (addRow (V c main_v50) (V c main_arg4))
    (fun t _ => bias_flushed V c t) rows_covered

end Cert.KernelIdeal.Gcn

end
-- ==== Proof.EntryValues.lean ====
import proofs.«141743_j36567351558725_1_alg».proof.Proof.Gen.KernelIdeal.Frame
import proofs.«141743_j36567351558725_1_alg».proof.Proof.Gen.ReferenceIdeal.Read
import Idealize.ShloMosaic.Lib.StableHlo.Run

set_option maxRecDepth 16384

noncomputable section

namespace Cert.KernelIdeal.Gcn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! # What five buffers hold when the first region is entered

The host operations before the first region compute, from the edge-index array and the edge weights, the source and
target node of every edge (self loops appended) and the symmetric normalisation
`d(src)^(-1/2) · w · d(dst)^(-1/2)` of every edge; the feature array and the weight matrix are not written. Each of the
three computed arrays is the reference's value of the same name, operation by operation. -/

/-! ## The two arrays no host operation writes -/
/-- No host operation before the first region writes the feature array or the weight matrix. -/
theorem x_entry (c : Dev nD) : W5 m ρ c (Proc.devRef .tc main_arg0) = m ((c.tc : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem w_entry (c : Dev nD) : W5 m ρ c (Proc.devRef .tc main_arg3) = m ((c.tc : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

/-! ## The node arrays: a row of the edge-index array with `0 … 99999` appended -/
/-- Entering the first region, the source-node array is the reference's: the first row of the edge-index array with 0 … 99999 appended. -/
theorem row_entry (c : Dev nD) : W5 m ρ c (Proc.devRef .tc main_v5)
    = Cert.ReferenceIdeal.Read.val_main_v3 (F := Ideal) (m ((c.tc : Thread nD τ).loc main_arg1)) := by
  show StableHlo.after hostOps0_4 (StableHlo.after hostOps0_3 (StableHlo.after hostOps0_2 (StableHlo.after hostOps0_1 (StableHlo.after hostOps0 (fun b => (s₀ m ρ).mem (c, b)))))) (Proc.devRef .tc main_v5) = _
  after_results_simp
  rfl
/-- … the target-node array likewise (the second row). -/
theorem col_entry (c : Dev nD) : W5 m ρ c (Proc.devRef .tc main_v6)
    = Cert.ReferenceIdeal.Read.val_main_v6 (F := Ideal) (m ((c.tc : Thread nD τ).loc main_arg1)) := by
  show StableHlo.after hostOps0_4 (StableHlo.after hostOps0_3 (StableHlo.after hostOps0_2 (StableHlo.after hostOps0_1 (StableHlo.after hostOps0 (fun b => (s₀ m ρ).mem (c, b)))))) (Proc.devRef .tc main_v6) = _
  after_results_simp
  rfl

/-! ## The normalisation

After the first stretch of host operations (up to the degrees and their positivity masks) every later operation reads
only seven of its results; each of the seven is the reference's stage. -/
/-- The source nodes. -/
private theorem W1_v5 (c : Dev nD) : W1 m ρ c (Proc.devRef .tc main_v5) = Cert.ReferenceIdeal.Read.val_main_v3 (F := Ideal) (m ((c.tc : Thread nD τ).loc main_arg1)) := by
  show StableHlo.after hostOps0 (fun b => (s₀ m ρ).mem (c, b)) (Proc.devRef .tc main_v5) = _
  after_results_simp
  rfl
/-- The target nodes. -/
private theorem W1_v6 (c : Dev nD) : W1 m ρ c (Proc.devRef .tc main_v6) = Cert.ReferenceIdeal.Read.val_main_v6 (F := Ideal) (m ((c.tc : Thread nD τ).loc main_arg1)) := by
  show StableHlo.after hostOps0 (fun b => (s₀ m ρ).mem (c, b)) (Proc.devRef .tc main_v6) = _
  after_results_simp
  rfl
/-- The edge weights with a one appended for every self loop. -/
private theorem W1_v8 (c : Dev nD) : W1 m ρ c (Proc.devRef .tc main_v8) = Cert.ReferenceIdeal.Read.val_main_v8 (F := Ideal) (m ((c.tc : Thread nD τ).loc main_arg2)) := by
  show StableHlo.after hostOps0 (fun b => (s₀ m ρ).mem (c, b)) (Proc.devRef .tc main_v8) = _
  after_results_simp
  rfl
/-- The degrees: the weights scatter-added at the target nodes. -/
private theorem W1_v11 (c : Dev nD) : W1 m ρ c (Proc.devRef .tc main_v11) = Cert.ReferenceIdeal.Read.val_main_v11 (F := Ideal) (m ((c.tc : Thread nD τ).loc main_arg1)) (m ((c.tc : Thread nD τ).loc main_arg2)) := by
  show StableHlo.after hostOps0 (fun b => (s₀ m ρ).mem (c, b)) (Proc.devRef .tc main_v11) = _
  after_results_simp
  rfl
/-- The mask `degree > 0` (it is computed twice). -/
private theorem W1_v13 (c : Dev nD) : W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (fun b => (s₀ m ρ).mem (c, b)) (Proc.devRef .tc main_v13) = _
  after_results_simp
  rfl

private theorem W1_v15 (c : Dev nD) : W1 m ρ c (Proc.devRef .tc main_v15) = Cert.ReferenceIdeal.Read.val_main_v15 (F := Ideal) (m ((c.tc : Thread nD τ).loc main_arg1)) (m ((c.tc : Thread nD τ).loc main_arg2)) := by
  show StableHlo.after hostOps0 (fun b => (s₀ m ρ).mem (c, b)) (Proc.devRef .tc main_v15) = _
  after_results_simp
  rfl
/-- The constant one. -/
private theorem W1_cst_3 (c : Dev nD) : W1 m ρ c (Proc.devRef .tc main_cst_3) = Cert.ReferenceIdeal.Read.val_main_cst_3 (F := Ideal) := by
  show StableHlo.after hostOps0 (fun b => (s₀ m ρ).mem (c, b)) (Proc.devRef .tc main_cst_3) = _
  after_results_simp
  rfl

/-- The per-edge normalisation as one term over what the first stretch of host operations leaves: with
    `deg` the scatter-added degrees, `pos = deg > 0` (computed twice), `src`, `dst` the node arrays, `w` the weights
    with the self loops' ones appended and `one` the constant 1:
    `d = select pos (rsqrt (select pos deg 1)) 0`, and the result is `(d[src'] · w) · d[dst']`, where `src'`, `dst'`
    are the node indices with negative ones wrapped around (add 100000). -/
private def edgeNorm (src dst : (⟨S3300000, .i32⟩ : BufTy).Contents (Elt Ideal)) (w : (⟨S3300000, .f32⟩ : BufTy).Contents (Elt Ideal)) (deg : (⟨S100000, .f32⟩ : BufTy).Contents (Elt Ideal))
    (pos pos' : (⟨S100000, .i1⟩ : BufTy).Contents (Elt Ideal)) (one : (⟨S_, .f32⟩ : BufTy).Contents (Elt Ideal)) : (⟨S3300000, .f32⟩ : BufTy).Contents (Elt Ideal) :=
  mulf
    (mulf
      (Host.gather gather_S100000_S3300000x1_S3300000_n_0_n_n_0_1_1
        (select pos
          (Host.rsqrt (select pos' deg (broadcastInDim S100000 ![] bcast_S_S100000 (id one))))
          (broadcastInDim S100000 ![] bcast_S_S100000 (id (constant (F := Ideal) S_ .f32 0x00000000#32))))
        (broadcastInDim S3300000x1 ![0] bcast_S3300000_S3300000x1_0
          (select (cmpi .slt src (broadcastInDim S3300000 ![] bcast_S_S3300000 (constantI S_ 32 0#32)))
            (addi src (broadcastInDim S3300000 ![] bcast_S_S3300000 (constantI S_ 32 100000#32)))
            src)))
      w)
    (Host.gather gather_S100000_S3300000x1_S3300000_n_0_n_n_0_1_1
      (select pos
        (Host.rsqrt (select pos' deg (broadcastInDim S100000 ![] bcast_S_S100000 (id one))))
        (broadcastInDim S100000 ![] bcast_S_S100000 (id (constant (F := Ideal) S_ .f32 0x00000000#32))))
      (broadcastInDim S3300000x1 ![0] bcast_S3300000_S3300000x1_0
        (select (cmpi .slt dst (broadcastInDim S3300000 ![] bcast_S_S3300000 (constantI S_ 32 0#32)))
          (addi dst (broadcastInDim S3300000 ![] bcast_S_S3300000 (constantI S_ 32 100000#32)))
          dst)))

/-- The host operations after the first stretch compute `edgeNorm` of what that stretch leaves. -/
private theorem norm_fold (V : Valuation τ sig (Elt Ideal))
    (src dst : (⟨S3300000, .i32⟩ : BufTy).Contents (Elt Ideal)) (w : (⟨S3300000, .f32⟩ : BufTy).Contents (Elt Ideal)) (deg : (⟨S100000, .f32⟩ : BufTy).Contents (Elt Ideal))
    (pos pos' : (⟨S100000, .i1⟩ : BufTy).Contents (Elt Ideal)) (one : (⟨S_, .f32⟩ : BufTy).Contents (Elt Ideal))
    (h5 : V (Proc.devRef .tc main_v5) = src) (h6 : V (Proc.devRef .tc main_v6) = dst)
    (h8 : V (Proc.devRef .tc main_v8) = w) (h11 : V (Proc.devRef .tc main_v11) = deg)
    (h13 : V (Proc.devRef .tc main_v13) = pos) (h15 : V (Proc.devRef .tc main_v15) = pos')
    (h3 : V (Proc.devRef .tc main_cst_3) = one) :
    StableHlo.after hostOps0_4 (StableHlo.after hostOps0_3 (StableHlo.after hostOps0_2 (StableHlo.after hostOps0_1 V))) (Proc.devRef .tc main_v34)
      = edgeNorm src dst w deg pos pos' one := by
  subst h5 h6 h8 h11 h13 h15 h3
  after_results_simp
  rfl

/-- The reference's per-edge normalisation is `edgeNorm` of its own stages. -/
private theorem edgeNorm_ref (x1 : (⟨S2x3200000, .i32⟩ : BufTy).Contents (Elt Ideal)) (x2 : (⟨S3200000, .f32⟩ : BufTy).Contents (Elt Ideal)) :
    edgeNorm (Cert.ReferenceIdeal.Read.val_main_v3 (F := Ideal) x1) (Cert.ReferenceIdeal.Read.val_main_v6 (F := Ideal) x1) (Cert.ReferenceIdeal.Read.val_main_v8 (F := Ideal) x2)
      (Cert.ReferenceIdeal.Read.val_main_v11 (F := Ideal) x1 x2) (Cert.ReferenceIdeal.Read.val_main_v13 (F := Ideal) x1 x2) (Cert.ReferenceIdeal.Read.val_main_v15 (F := Ideal) x1 x2)
      (Cert.ReferenceIdeal.Read.val_main_cst_3 (F := Ideal)) = Cert.ReferenceIdeal.Read.val_main_v34 (F := Ideal) x1 x2 := rfl

/-- … and the per-edge normalisation is the reference's, operation by operation. -/
theorem norm_entry (c : Dev nD) : W5 m ρ c (Proc.devRef .tc main_v34)
    = Cert.ReferenceIdeal.Read.val_main_v34 (F := Ideal) (m ((c.tc : Thread nD τ).loc main_arg1)) (m ((c.tc : Thread nD τ).loc main_arg2)) :=
  (norm_fold (W1 m ρ c) _ _ _ _ _ _ _ (W1_v5 m ρ c) (W1_v6 m ρ c) (W1_v8 m ρ c) (W1_v11 m ρ c) (W1_v13 m ρ c)
    (W1_v15 m ρ c) (W1_cst_3 m ρ c)).trans (edgeNorm_ref _ _)

end Cert.KernelIdeal.Gcn

end
-- ==== Proof.Between.lean ====
/-
  From the first region's entry to the result. Writing x, ei, ew, w, b for the five argument arrays as launched, and
  row, col, norm for the source nodes, the target nodes and the per-edge normalisation as the first region finds
  them, the program's remaining steps are:
    xt    = the first region's array: the matrix product x · w;
    g     = the rows of xt gathered at (row wrapped into range);      n = norm as a column;
    the second region's array = (g padded with 1376 rows), each row scaled by (n padded) at that row;
    msgs  = its first 3300000 rows, which is g · (n broadcast along rows): no padding value is ever read;
    s     = zeros with msgs scatter-added at col;
    out   = the third region's array: s with b added to every row.
  Each is the reference's stage of the same name, so out is the reference's result as a function of the arguments.
-/
import proofs.«141743_j36567351558725_1_alg».proof.Proof.Gen.KernelIdeal.Frame
import proofs.«141743_j36567351558725_1_alg».proof.Proof.Gen.ReferenceIdeal.Read
import proofs.«141743_j36567351558725_1_alg».proof.Proof.Arrays
import proofs.«141743_j36567351558725_1_alg».proof.Proof.HostLayout
import proofs.«141743_j36567351558725_1_alg».proof.Proof.MatmulBlocks
import proofs.«141743_j36567351558725_1_alg».proof.Proof.ScaleBlocks
import proofs.«141743_j36567351558725_1_alg».proof.Proof.BiasBlocks
import proofs.«141743_j36567351558725_1_alg».proof.Proof.EntryValues
import Idealize.ShloMosaic.Lib.StableHlo.Run

set_option maxRecDepth 16384

noncomputable section

namespace Cert.KernelIdeal.Gcn

open Cert.KernelIdeal Cert.KernelIdeal.Gen Idealize.ShloMosaic Idealize.ShloMosaic.TcCoe Idealize.SL.Sem Idealize.ShloMosaic.StableHlo

/-! ## The host operations between the regions, from arbitrary contents -/

section Stretches

variable (Wv : Valuation τ sig (Elt Ideal))

/-- Between the first two regions: the rows of the product buffer gathered at the wrapped source nodes, padded. -/
theorem stretch_gathered :
    StableHlo.after hostOps1_3 (StableHlo.after hostOps1_2 (StableHlo.after hostOps1_1 (StableHlo.after hostOps1 Wv))) (Proc.devRef .tc main_v44)
      = (pad S3301376x64 ![0, 0] ![1376, 0] ![0, 0] (Host.gather gather_S100000x64_S3300000x1_S3300000x64_1_0_n_n_0_1_164 (Wv (Proc.devRef .tc main_v35))
      (broadcastInDim S3300000x1 ![0] bcast_S3300000_S3300000x1_0
        (select (cmpi .slt (Wv (Proc.devRef .tc main_v5)) (broadcastInDim S3300000 ![] bcast_S_S3300000 (constantI S_ 32 0#32)))
          (addi (Wv (Proc.devRef .tc main_v5)) (broadcastInDim S3300000 ![] bcast_S_S3300000 (constantI S_ 32 100000#32))) (Wv (Proc.devRef .tc main_v5))))) (sitofp (F := Ideal) .f32 (constantI S_ 32 0#32)) pads_S3300000x64_S3301376x64_013760_000 h_S_) := by
  after_results
  rfl

/-- … and the normalisation as a column, padded. -/
theorem stretch_norm_column :
    StableHlo.after hostOps1_3 (StableHlo.after hostOps1_2 (StableHlo.after hostOps1_1 (StableHlo.after hostOps1 Wv))) (Proc.devRef .tc main_v45)
      = (pad S3301376x1 ![0, 0] ![1376, 0] ![0, 0] (broadcastInDim S3300000x1 ![0] bcast_S3300000_S3300000x1_0 (Wv (Proc.devRef .tc main_v34))) (sitofp (F := Ideal) .f32 (constantI S_ 32 0#32)) pads_S3300000x1_S3301376x1_013760_000 h_S_) := by
  after_results
  rfl

/-- … while the target nodes are not written. -/
theorem stretch_col_kept :
    StableHlo.after hostOps1_3 (StableHlo.after hostOps1_2 (StableHlo.after hostOps1_1 (StableHlo.after hostOps1 Wv))) (Proc.devRef .tc main_v6) = Wv (Proc.devRef .tc main_v6) := by
  after_results

/-- Between the last two regions: the first 3300000 rows of the second region's buffer scatter-added into zeros at the target nodes. -/
theorem stretch_scatter :
    StableHlo.after hostOps2 Wv (Proc.devRef .tc main_v50)
      = (Host.scatterAdd (F := Ideal) scatter_S100000x64_S3300000x1_S3300000x64_1_0_0_1
      (broadcastInDim S100000x64 ![] bcast_S_S100000x64 (constant S_ .f32 0x00000000#32))
      (broadcastInDim S3300000x1 ![0] bcast_S3300000_S3300000x1_0 (Wv (Proc.devRef .tc main_v6)))
      (extractStridedSlice S3300000x64 ![0, 0] (Wv (Proc.devRef .tc main_v46)) slices_S3301376x64_S3300000x64_0_0)) := by
  after_results

end Stretches

/-! ## The same operations are the reference's stages -/

/-- Gathering rows of the product at the wrapped source nodes is the reference's gather. -/
theorem gather_stage (x0 : (⟨S100000x8, .f32⟩ : BufTy).Contents (Elt Ideal)) (x1 : (⟨S2x3200000, .i32⟩ : BufTy).Contents (Elt Ideal)) (x3 : (⟨S8x64, .f32⟩ : BufTy).Contents (Elt Ideal)) :
    (Host.gather gather_S100000x64_S3300000x1_S3300000x64_1_0_n_n_0_1_164 (Cert.ReferenceIdeal.Read.val_main_v35 (F := Ideal) x0 x3)
      (broadcastInDim S3300000x1 ![0] bcast_S3300000_S3300000x1_0
        (select (cmpi .slt (Cert.ReferenceIdeal.Read.val_main_v3 (F := Ideal) x1) (broadcastInDim S3300000 ![] bcast_S_S3300000 (constantI S_ 32 0#32)))
          (addi (Cert.ReferenceIdeal.Read.val_main_v3 (F := Ideal) x1) (broadcastInDim S3300000 ![] bcast_S_S3300000 (constantI S_ 32 100000#32))) (Cert.ReferenceIdeal.Read.val_main_v3 (F := Ideal) x1))))
      = Cert.ReferenceIdeal.Read.val_main_v42 (F := Ideal) x0 x1 x3 := rfl

/-- The normalisation as a column is the reference's. -/
theorem norm_column_stage (x1 : (⟨S2x3200000, .i32⟩ : BufTy).Contents (Elt Ideal)) (x2 : (⟨S3200000, .f32⟩ : BufTy).Contents (Elt Ideal)) :
    broadcastInDim S3300000x1 ![0] bcast_S3300000_S3300000x1_0 (Cert.ReferenceIdeal.Read.val_main_v34 (F := Ideal) x1 x2)
      = Cert.ReferenceIdeal.Read.val_main_v43 (F := Ideal) x1 x2 := rfl

/-- The first 3300000 rows of the scaled padded arrays are g · (n broadcast along rows): no padding value is read. -/
theorem messages_slice (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) :
    (extractStridedSlice S3300000x64 ![0, 0]
        (scaleRows (pad S3301376x64 ![0, 0] ![1376, 0] ![0, 0] (Cert.ReferenceIdeal.Read.val_main_v42 (F := Ideal) x0 x1 x3) (sitofp (F := Ideal) .f32 (constantI S_ 32 0#32)) pads_S3300000x64_S3301376x64_013760_000 h_S_)
          (pad S3301376x1 ![0, 0] ![1376, 0] ![0, 0] (Cert.ReferenceIdeal.Read.val_main_v43 (F := Ideal) x1 x2) (sitofp (F := Ideal) .f32 (constantI S_ 32 0#32)) pads_S3300000x1_S3301376x1_013760_000 h_S_)) slices_S3301376x64_S3300000x64_0_0)
      = mulf (F := Ideal) (φ := .f32) (Cert.ReferenceIdeal.Read.val_main_v42 (F := Ideal) x0 x1 x3) (broadcastInDim S3300000x64 ![0, 1] Cert.ReferenceIdeal.Gen.bcast_S3300000x1_S3300000x64_0_1 (Cert.ReferenceIdeal.Read.val_main_v43 (F := Ideal) x1 x2)) :=
  slice_scaleRows_pad (Cert.ReferenceIdeal.Read.val_main_v42 (F := Ideal) x0 x1 x3) (Cert.ReferenceIdeal.Read.val_main_v43 (F := Ideal) x1 x2) _ _
      pads_S3300000x64_S3301376x64_013760_000 pads_S3300000x1_S3301376x1_013760_000 h_S_ slices_S3301376x64_S3300000x64_0_0
      Cert.ReferenceIdeal.Gen.bcast_S3300000x1_S3300000x64_0_1

/-- … which is the reference's array of messages. -/
theorem messages_product (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) :
    mulf (F := Ideal) (φ := .f32) (Cert.ReferenceIdeal.Read.val_main_v42 (F := Ideal) x0 x1 x3) (broadcastInDim S3300000x64 ![0, 1] Cert.ReferenceIdeal.Gen.bcast_S3300000x1_S3300000x64_0_1 (Cert.ReferenceIdeal.Read.val_main_v43 (F := Ideal) x1 x2))
      = Cert.ReferenceIdeal.Read.val_main_v45 (F := Ideal) x0 x1 x2 x3 := rfl

theorem messages_stage (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) :
    (extractStridedSlice S3300000x64 ![0, 0]
        (scaleRows (pad S3301376x64 ![0, 0] ![1376, 0] ![0, 0] (Cert.ReferenceIdeal.Read.val_main_v42 (F := Ideal) x0 x1 x3) (sitofp (F := Ideal) .f32 (constantI S_ 32 0#32)) pads_S3300000x64_S3301376x64_013760_000 h_S_)
          (pad S3301376x1 ![0, 0] ![1376, 0] ![0, 0] (Cert.ReferenceIdeal.Read.val_main_v43 (F := Ideal) x1 x2) (sitofp (F := Ideal) .f32 (constantI S_ 32 0#32)) pads_S3300000x1_S3301376x1_013760_000 h_S_)) slices_S3301376x64_S3300000x64_0_0)
      = Cert.ReferenceIdeal.Read.val_main_v45 (F := Ideal) x0 x1 x2 x3 :=
  (messages_slice x0 x1 x2 x3).trans (messages_product x0 x1 x2 x3)

/-- Scatter-adding the messages into zeros at the target nodes is the reference's scatter. -/
theorem scatter_stage (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) :
    (Host.scatterAdd (F := Ideal) scatter_S100000x64_S3300000x1_S3300000x64_1_0_0_1
      (broadcastInDim S100000x64 ![] bcast_S_S100000x64 (constant S_ .f32 0x00000000#32))
      (broadcastInDim S3300000x1 ![0] bcast_S3300000_S3300000x1_0 (Cert.ReferenceIdeal.Read.val_main_v6 (F := Ideal) x1))
      (Cert.ReferenceIdeal.Read.val_main_v45 (F := Ideal) x0 x1 x2 x3))
      = Cert.ReferenceIdeal.Read.val_main_v48 (F := Ideal) x0 x1 x2 x3 := rfl

/-- Adding b to every row of the scatter-added messages is the reference's result. -/
theorem bias_stage (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) :
    addRow (Cert.ReferenceIdeal.Read.val_main_v48 (F := Ideal) x0 x1 x2 x3) x4 = Cert.ReferenceIdeal.Read.val_main_v51 (F := Ideal) x0 x1 x2 x3 x4 :=
  (addRow_eq_addf _ _ Cert.ReferenceIdeal.Gen.bcast_S64_S1x64_1 Cert.ReferenceIdeal.Gen.bcast_S1x64_S100000x64_0_1).trans rfl

/-! ## The fold of contents through the regions -/

variable (m : (ℓ : Loc nD τ sig) → Buf (Elt Ideal) ℓ) (ρ : Dev nD → PrngReg)

/-- Leaving the first region, its result array is the reference's matrix product of the launched x and w. -/
theorem products_left (c : Dev nD) :
    W6 m ρ c (Proc.devRef .tc main_v35) = Cert.ReferenceIdeal.Read.val_main_v35 (F := Ideal) (m ((c.tc : Thread nD τ).loc main_arg0)) (m ((c.tc : Thread nD τ).loc main_arg3)) := by
  refine (W6_arr m ρ c 2).trans ((matmul_region (V5 m ρ) c).trans ?_)
  show Cert.ReferenceIdeal.Read.val_main_v35 (F := Ideal) (W5 m ρ c (Proc.devRef .tc main_arg0)) (W5 m ρ c (Proc.devRef .tc main_arg3)) = _
  rw [x_entry m ρ c, w_entry m ρ c]

/-- The first region writes neither row, col nor norm. -/
theorem row_left (c : Dev nD) : W6 m ρ c (Proc.devRef .tc main_v5) = Cert.ReferenceIdeal.Read.val_main_v3 (F := Ideal) (m ((c.tc : Thread nD τ).loc main_arg1)) :=
  (W6_of_ne m ρ c main_v5 (by decide)).trans (row_entry m ρ c)

theorem col_left (c : Dev nD) : W6 m ρ c (Proc.devRef .tc main_v6) = Cert.ReferenceIdeal.Read.val_main_v6 (F := Ideal) (m ((c.tc : Thread nD τ).loc main_arg1)) :=
  (W6_of_ne m ρ c main_v6 (by decide)).trans (col_entry m ρ c)

theorem norm_left (c : Dev nD) : W6 m ρ c (Proc.devRef .tc main_v34) = Cert.ReferenceIdeal.Read.val_main_v34 (F := Ideal) (m ((c.tc : Thread nD τ).loc main_arg1)) (m ((c.tc : Thread nD τ).loc main_arg2)) :=
  (W6_of_ne m ρ c main_v34 (by decide)).trans (norm_entry m ρ c)

/-- Entering the second region, its first operand is the reference's gathered rows, padded with 1376 rows. -/
theorem gathered_padded (c : Dev nD) :
    V10 m ρ c main_v44 = (pad S3301376x64 ![0, 0] ![1376, 0] ![0, 0] (Cert.ReferenceIdeal.Read.val_main_v42 (F := Ideal) (m ((c.tc : Thread nD τ).loc main_arg0)) (m ((c.tc : Thread nD τ).loc main_arg1)) (m ((c.tc : Thread nD τ).loc main_arg3))) (sitofp (F := Ideal) .f32 (constantI S_ 32 0#32)) pads_S3300000x64_S3301376x64_013760_000 h_S_) := by
  refine (stretch_gathered (W6 m ρ c)).trans ?_
  rw [products_left m ρ c, row_left m ρ c, gather_stage]

/-- … and its second operand is the reference's normalisation column, padded likewise. -/
theorem norm_padded (c : Dev nD) :
    V10 m ρ c main_v45 = (pad S3301376x1 ![0, 0] ![1376, 0] ![0, 0] (Cert.ReferenceIdeal.Read.val_main_v43 (F := Ideal) (m ((c.tc : Thread nD τ).loc main_arg1)) (m ((c.tc : Thread nD τ).loc main_arg2))) (sitofp (F := Ideal) .f32 (constantI S_ 32 0#32)) pads_S3300000x1_S3301376x1_013760_000 h_S_) := by
  refine (stretch_norm_column (W6 m ρ c)).trans ?_
  rw [norm_left m ρ c, norm_column_stage]

/-- Nothing between the first region and the third writes col. -/
theorem col_kept (c : Dev nD) : W11 m ρ c (Proc.devRef .tc main_v6) = Cert.ReferenceIdeal.Read.val_main_v6 (F := Ideal) (m ((c.tc : Thread nD τ).loc main_arg1)) :=
  (W11_of_ne m ρ c main_v6 (by decide)).trans ((stretch_col_kept (W6 m ρ c)).trans (col_left m ρ c))

/-- Leaving the second region, its result array is the padded gathered rows, each scaled by the padded norm. -/
theorem scaled_left (c : Dev nD) :
    W11 m ρ c (Proc.devRef .tc main_v46)
      = scaleRows (pad S3301376x64 ![0, 0] ![1376, 0] ![0, 0] (Cert.ReferenceIdeal.Read.val_main_v42 (F := Ideal) (m ((c.tc : Thread nD τ).loc main_arg0)) (m ((c.tc : Thread nD τ).loc main_arg1)) (m ((c.tc : Thread nD τ).loc main_arg3))) (sitofp (F := Ideal) .f32 (constantI S_ 32 0#32)) pads_S3300000x64_S3301376x64_013760_000 h_S_)
          (pad S3301376x1 ![0, 0] ![1376, 0] ![0, 0] (Cert.ReferenceIdeal.Read.val_main_v43 (F := Ideal) (m ((c.tc : Thread nD τ).loc main_arg1)) (m ((c.tc : Thread nD τ).loc main_arg2))) (sitofp (F := Ideal) .f32 (constantI S_ 32 0#32)) pads_S3300000x1_S3301376x1_013760_000 h_S_) := by
  refine (W11_arr m ρ c 2).trans ((scale_region (V10 m ρ) c).trans ?_)
  rw [gathered_padded m ρ c, norm_padded m ρ c]

/-- The first 3300000 rows of the second region's result are the reference's messages. -/
theorem messages (c : Dev nD) :
    extractStridedSlice S3300000x64 ![0, 0] (W11 m ρ c (Proc.devRef .tc main_v46)) slices_S3301376x64_S3300000x64_0_0
      = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) := by
  rw [scaled_left m ρ c]
  exact messages_stage _ _ _ _

/-- Entering the third region, its first operand is the reference's scatter-added messages. -/
theorem scattered (c : Dev nD) :
    V12 m ρ c main_v50 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  refine (stretch_scatter (W11 m ρ c)).trans ?_
  rw [messages m ρ c, col_kept m ρ c]
  exact scatter_stage _ _ _ _

/-- … and its second operand is the launched b. -/
theorem bias_kept (c : Dev nD) : V12 m ρ c main_arg4 = (m ((c.tc : Thread nD τ).loc main_arg4)) :=
  ((W13_arr m ρ c 1).trans (((dat2 (V12 m ρ) c).arrAt_in 1 rfl _).trans (A_eq2 (V12 m ρ) c 1))).symm.trans (W13_main_arg4 m ρ c)

/-- The result buffer ends at the reference's result, as a function of the launched arguments. -/
theorem result_eq (c : Dev nD) :
    W13 m ρ c (Proc.devRef .tc main_v51)
      = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W13_arr m ρ c 2).trans ((bias_region (V12 m ρ) c).trans ?_)
  rw [scattered m ρ c, bias_kept m ρ c]
  exact bias_stage _ _ _ _ _

end Cert.KernelIdeal.Gcn

end
-- ==== Proof.lean ====
/-
  A graph-convolution layer with symmetric normalisation and self loops, on 100000 nodes with 8 input and 64 output
  features and 3200000 weighted edges: with row, col the source and target nodes (self loops appended), ew the edge
  weights (ones appended), deg the sum of ew over the edges into each node, dis = deg^(-1/2) where deg > 0 and 0
  elsewhere, and norm = dis[row] · ew · dis[col],

      out = scatter-add over col of ( (x · w)[row] · norm )  +  b.

  The kernel program and the reference compute row, col, ew, deg, dis and norm by the same host operations. They differ
  in three places, each a pipelined region of the kernel program:
    * x · w is computed 5000 rows at a time, each block a matrix product of the block of x with the whole of w into a
      zero accumulator (the operands' change of float format is the identity on the extended reals): the blocks tile the
      100000 rows, so the array is the whole product, entry by entry the same sum over the 8 input features;
    * the gathered rows and norm (as a column) are padded with 1376 zero rows to 3301376 = 403 · 8192 rows, multiplied row
      by row 8192 rows at a time, and the first 3300000 rows kept: the padding is never read, and entry (e, j) is
      (x · w)[row e, j] · norm e, the reference's product with norm broadcast along the rows;
    * b is added 10000 rows at a time: entry (r, j) is s(r, j) + b(j), the reference's sum with b broadcast to every row.
  No algebraic law beyond these readings is used, so the precondition (finite inputs) is never opened: the two programs
  are the same function of the arguments on all extended reals. The idealisation rewrote no operation, so that
  conjunct is trivial; the three frames are the programs' runs with the results dropped.
-/
import proofs.«141743_j36567351558725_1_alg».proof.Defs
import proofs.«141743_j36567351558725_1_alg».proof.Proof.Gen.Kernel
import proofs.«141743_j36567351558725_1_alg».proof.Proof.Gen.Kernel.Skeleton
import proofs.«141743_j36567351558725_1_alg».proof.Proof.Gen.Kernel.Launch
import proofs.«141743_j36567351558725_1_alg».proof.Proof.Gen.Kernel.Points
import proofs.«141743_j36567351558725_1_alg».proof.Proof.Gen.Kernel.Frame
import proofs.«141743_j36567351558725_1_alg».proof.Proof.Gen.KernelIdeal
import proofs.«141743_j36567351558725_1_alg».proof.Proof.Gen.KernelIdeal.Skeleton
import proofs.«141743_j36567351558725_1_alg».proof.Proof.Gen.KernelIdeal.Launch
import proofs.«141743_j36567351558725_1_alg».proof.Proof.Gen.KernelIdeal.Points
import proofs.«141743_j36567351558725_1_alg».proof.Proof.Gen.KernelIdeal.Frame
import proofs.«141743_j36567351558725_1_alg».proof.Proof.Gen.ReferenceIdeal
import proofs.«141743_j36567351558725_1_alg».proof.Proof.Gen.Pre_finite_inputs
import proofs.«141743_j36567351558725_1_alg».proof.Proof.Gen.ReferenceIdeal.Run
import proofs.«141743_j36567351558725_1_alg».proof.Proof.Gen.ReferenceIdeal.Read
import proofs.«141743_j36567351558725_1_alg».proof.Proof.KernelRun
import proofs.«141743_j36567351558725_1_alg».proof.Proof.Between
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten in passing to the extended reals. -/
theorem preserves : Cert.preserves_Kernel_KernelIdeal := trivial

/-- From memories agreeing on the arguments both programs end with the result at the reference's function of the
    arguments: the kernel program by the fold of its buffer contents through the three regions, the reference by its
    own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Gcn.result_eq m ρ c), (h c).2⟩)
      (Cert.KernelIdeal.Gcn.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
